-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S512x64 : Shape := ⟨2, ![512, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S262144x64 .f32) (main_arg1 : FVec F S512x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S262144x64 : Shape := ⟨2, ![262144, 64]⟩
abbrev S512x64 : Shape := ⟨2, ![512, 64]⟩
abbrev S_ : Shape := ⟨0, ![]⟩
abbrev S512 : Shape := ⟨1, ![512]⟩
abbrev S1x512 : Shape := ⟨2, ![1, 512]⟩
abbrev S262144x512 : Shape := ⟨2, ![262144, 512]⟩
abbrev S4096x64 : Shape := ⟨2, ![4096, 64]⟩
abbrev S4096x512 : Shape := ⟨2, ![4096, 512]⟩
abbrev S4096 : Shape := ⟨1, ![4096]⟩
abbrev S4096x1 : Shape := ⟨2, ![4096, 1]⟩

abbrev nBuf : Space → Nat
  | .hbm => 7
  | .vmem => 6
  | .smem => 0
  | _ => 0

abbrev bufTy : (tb : Table) → Fin (tcTables nBuf tb) → BufTy
  | .hbm, ⟨0, _⟩ => ⟨S262144x64, .f32⟩
  | .hbm, ⟨1, _⟩ => ⟨S512x64, .f32⟩
  | .hbm, ⟨2, _⟩ => ⟨S512x64, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S262144x512, .f32⟩
  | .local _ .vmem, ⟨0, _⟩ => ⟨S4096x64, .f32⟩
  | .local _ .vmem, ⟨1, _⟩ => ⟨S4096x64, .f32⟩
  | .local _ .vmem, ⟨2, _⟩ => ⟨S512x64, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x64_S512_d1 : S512x64.ReducesTo [1] S512
  h_S_ : 0 < S_.numel
  shapeCasts_S512_S1x512 : S512.ShapeCasts S1x512
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  reduces_S4096x64_S4096 : S4096x64.Reduces [1] S4096
  shapeCasts_S4096_S4096x1 : S4096.ShapeCasts S4096x1
  broadcasts_S4096x1_S4096x512 : S4096x1.Broadcasts S4096x512
  broadcasts_S1x512_S4096x512 : S1x512.Broadcasts S4096x512
  reduces_S4096x512_S4096 : S4096x512.Reduces [1] S4096
  inb_S4096x512_S4096x512_0_0 : ∀ a, (![0, 0] : Fin 2 → Nat) a + S4096x512.size a ≤ S4096x512.size a
  h_S4096x512 : 0 < S4096x512.numel
  dot_S4096x64_S512x64_S4096x512_1_1_0_0_n_n_wf : DotDims.WF S4096x64 S512x64 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S262144x512.size a
  hwx0_3 : ∀ i : grid0.Coords, EltTy.bits .f32 = 32 ∨ (Rect.block (s := S262144x512) S4096x512.size (cc0_transform_3 i) (hinb0_3 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x64 : Shape := ⟨2, ![262144, 64]⟩
abbrev S512x64 : Shape := ⟨2, ![512, 64]⟩
abbrev S_ : Shape := ⟨0, ![]⟩
abbrev S262144 : Shape := ⟨1, ![262144]⟩
abbrev S262144x1 : Shape := ⟨2, ![262144, 1]⟩
abbrev S512 : Shape := ⟨1, ![512]⟩
abbrev S64x512 : Shape := ⟨2, ![64, 512]⟩
abbrev S262144x512 : Shape := ⟨2, ![262144, 512]⟩
abbrev S1x512 : Shape := ⟨2, ![1, 512]⟩

abbrev nBuf : Space → Nat
  | .hbm => 36
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S512x64, .f32⟩
  | .hbm, ⟨2, _⟩ => ⟨S262144x64, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S64x512, .f32⟩
  | .hbm, ⟨10, _⟩ => ⟨S262144x512, .f32⟩
  | .hbm, ⟨11, _⟩ => ⟨S_, .f32⟩
  | .hbm, ⟨12, _⟩ => ⟨S262144x512, .f32⟩
  | .hbm, ⟨13, _⟩ => ⟨S262144x512, .f32⟩
  | .hbm, ⟨14, _⟩ => ⟨S262144x512, .f32⟩
  | .hbm, ⟨15, _⟩ => ⟨S262144x512, .f32⟩
  | .hbm, ⟨16, _⟩ => ⟨S1x512, .f32⟩
  | .hbm, ⟨17, _⟩ => ⟨S262144x512, .f32⟩
  | .hbm, ⟨18, _⟩ => ⟨S262144x512, .f32⟩
  | .hbm, ⟨19, _⟩ => ⟨S_, .f32⟩
  | .hbm, ⟨20, _⟩ => ⟨S262144x512, .f32⟩
  | .hbm, ⟨21, _⟩ => ⟨S262144x512, .f32⟩
  | .hbm, ⟨22, _⟩ => ⟨S_, .f32⟩
  | .hbm, ⟨23, _⟩ => ⟨S262144x512, .f32⟩
  | .hbm, ⟨24, _⟩ => ⟨S262144x512, .f32⟩
  | .hbm, ⟨25, _⟩ => ⟨S_, .f32⟩
  | .hbm, ⟨26, _⟩ => ⟨S262144x512, .f32⟩
  | .hbm, ⟨27, _⟩ => ⟨S262144x512, .f32⟩
  | .hbm, ⟨28, _⟩ => ⟨S_, .f32⟩
  | .hbm, ⟨29, _⟩ => ⟨S262144x512, .f32⟩
  | .hbm, ⟨30, _⟩ => ⟨S262144x512, .f32⟩
  | .hbm, ⟨31, _⟩ => ⟨S_, .f32⟩
  | .hbm, ⟨32, _⟩ => ⟨S262144, .f32⟩
  | .hbm, ⟨33, _⟩ => ⟨S262144x1, .f32⟩
  | .hbm, ⟨34, _⟩ => ⟨S262144x512, .f32⟩
  | .hbm, ⟨35, _⟩ => ⟨S262144x512, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  reducesTo_S512x64_S512_d1 : S512x64.ReducesTo [1] S512
  transposes_S512x64_S64x512_1_0 : S512x64.Transposes [1, 0] S64x512
  bcast_S_S262144x512 : S_.BroadcastsInDim S262144x512 (![] : Fin 0 → Fin S262144x512.rank)
  bcast_S262144x1_S262144x512_0_1 : S262144x1.BroadcastsInDim S262144x512 (![0, 1] : Fin 2 → Fin S262144x512.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  reducesTo_S262144x512_S262144_d1 : S262144x512.ReducesTo [1] S262144
  dot_S262144x64_S64x512_S262144x512_1_0_0_1_n_n_wf : DotDims.WF S262144x64 S64x512 S262144x512 [1] [0] [0] [1] [] []

variable [Facts₀]

def dot_S262144x64_S64x512_S262144x512_1_0_0_1_n_n : DotDims S262144x64 S64x512 S262144x512 where
  lhsContracting := [1]
  rhsContracting := [0]
  lhsNonContracting := [0]
  rhsNonContracting := [1]
  lhsBatch := []
  rhsBatch := []
  wf := dot_S262144x64_S64x512_S262144x512_1_0_0_1_n_n_wf

class Facts : Prop extends Facts₀ where

variable [Facts]
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«109983_j44873818308675_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Spec.lean ====
/-
  Soft assignment of points to centroids by a Student-t kernel.

  A point `x` (64 features) and 512 centroids `c q` with their squared norms `s q`. The squared distance is expanded,
  `‖x‖² − 2·⟨x, c q⟩ + s q`, the weight of centroid `q` is `1 / (1 + distance²)` and the point's share of `q` is that weight
  over the sum of the 512 weights. Everything is read on the extended reals with the printed operations (the quotient is
  `Ideal.div`), the grouping of the three-term expansion is the one both programs spell, `(‖x‖² − 2·⟨x, c q⟩) + s q`, and the
  literals `1` and `2` stay the words of their float patterns.

  Two laws of the extended reals are all that separates the two programs: a quotient by one and a power with exponent
  one both give their argument back, at the infinities too.
-/
import Idealize.ShloMosaic.PureOps.Ideal
import Idealize.ShloMosaic.PureOps.Ideal.Laws
import Idealize.ShloMosaic.Lib.IdealHost
import Idealize.ShloMosaic.Lib.ValueIdx

noncomputable section

namespace Cert.SoftAssign

open Idealize.ShloMosaic Idealize.ShloMosaic.ValueIdx
open scoped BigOperators

/-- The float pattern of one, as an extended real. -/
abbrev oneW : EReal := Ideal.ofBits .f32 0x3F800000#32
/-- The float pattern of two, as an extended real. -/
abbrev twoW : EReal := Ideal.ofBits .f32 0x40000000#32

/-- The weight of centroid `q` for the point `x`: `1 / (1 + ((‖x‖² − 2·⟨x, c q⟩) + s q))`. -/
def weight (x : Fin 64 → EReal) (c : Fin 512 → Fin 64 → EReal) (s : Fin 512 → EReal) (q : Fin 512) : EReal :=
  Ideal.div oneW (oneW + (((∑ d : Fin 64, x d * x d) - twoW * ∑ d : Fin 64, x d * c q d) + s q))

/-- The point's share of centroid `q`: its weight over the sum of the weights of all centroids. -/
def share (x : Fin 64 → EReal) (c : Fin 512 → Fin 64 → EReal) (s : Fin 512 → EReal) (q : Fin 512) : EReal :=
  Ideal.div (weight x c s q) (∑ k : Fin 512, weight x c s k)

/-- The squared norm of centroid `q`. -/
def sqNorm (c : Fin 512 → Fin 64 → EReal) (q : Fin 512) : EReal := ∑ d : Fin 64, c q d * c q d

/-- Row `p` of a matrix with 64 columns. -/
abbrev rowOf {n : ℕ} (x : (⟨2, ![n, 64]⟩ : Shape).Idx → EReal) (p : Fin n) : Fin 64 → EReal := fun d => x (ix2 p d)

/-- A `[512, 64]` array as 512 rows. -/
abbrev rowsOf (c : (⟨2, ![512, 64]⟩ : Shape).Idx → EReal) : Fin 512 → Fin 64 → EReal := fun q d => c (ix2 q d)

/-- THE RESULT: entry `(p, q)` is the share of centroid `q` for point `p`, the centroids' squared norms computed from the
    centroids. -/
def result (x : (⟨2, ![262144, 64]⟩ : Shape).Idx → EReal) (c : (⟨2, ![512, 64]⟩ : Shape).Idx → EReal) :
    (⟨2, ![262144, 512]⟩ : Shape).Idx → EReal :=
  fun i => share (rowOf x (i 0)) (rowsOf c) (sqNorm (rowsOf c)) (i 1)

/-- The word of one is the real number one. -/
theorem oneW_eq : oneW = ((1 : ℝ) : EReal) := by
  show Ideal.ofBits .f32 0x3F800000#32 = _
  rw [Ideal.ofBits_one_f32]; norm_cast

/-- A quotient by the word of one is its numerator, on every extended real. -/
theorem div_oneW (x : EReal) : Ideal.div x oneW = x := by
  rw [oneW_eq, Ideal.div_coe (one_ne_zero) x, div_one, EReal.coe_one, mul_one]

/-- A power with the word of one as exponent is its base, on every extended real. -/
theorem pow_oneW (x : EReal) : Ideal.pow x oneW = x := by
  rw [oneW_eq]
  induction x using EReal.rec with
  | bot => rfl
  | top => rw [Ideal.pow_top, if_pos (by exact_mod_cast one_pos)]
  | coe r => rw [Ideal.pow_coe_coe]; exact congrArg _ (Real.rpow_one r)

end Cert.SoftAssign

end
-- ==== Proof.BlockValue.lean ====
/-
  One block of the kernel: 4096 points against all 512 centroids.

  The body receives a block `X` of 4096 points, the 512 centroids `C` and their squared norms as one row `s`. Read at
  `(p, q)`: a row's sum kept as a column and spread over the 512 columns is the row's sum; the matrix product contracts
  the feature axis of `X` with the feature axis of `C` (rows against rows), so its entry is the inner product of point `p`
  with centroid `q` — the change of float format in front of it is the identity on the extended reals and the zero
  accumulator adds nothing; the row `s` spread over the 4096 rows is `s q`. So the body's first quotient is the
  specification's weight and its result the specification's share, the sum of the weights being the row sum of the
  weights' array.
-/
import proofs.«109983_j44873818308675_2_alg».proof.Proof.Gen.KernelIdeal
import proofs.«109983_j44873818308675_2_alg».proof.Proof.Gen.KernelIdeal.Skeleton
import proofs.«109983_j44873818308675_2_alg».proof.Proof.LibRowsDot
import proofs.«109983_j44873818308675_2_alg».proof.Proof.LibRowSum
import proofs.«109983_j44873818308675_2_alg».proof.Proof.LibColumn
import proofs.«109983_j44873818308675_2_alg».proof.Proof.Spec
import Idealize.ShloMosaic.Lib.ValueLayout
import Idealize.ShloMosaic.Lib.Pipeline.Value

noncomputable section

namespace Cert.SoftAssign.Block

open Idealize.ShloMosaic Idealize.ShloMosaic.ValueIdx Cert.KernelIdeal Cert.KernelIdeal.Gen Cert.SoftAssign
open scoped BigOperators

/-- A sum over the rows of a `[4096, K]` array, kept as a column and spread over 512 columns, read at `(p, q)`: the sum of
    row `p`. -/
theorem rowSum_spread_at {K : ℕ} (src : FVec Ideal ⟨2, ![4096, K]⟩ .f32)
    (h : (⟨2, ![4096, K]⟩ : Shape).Reduces [1] S4096) (hφ : FKind.Formats .f32)
    (hacc : (0x00000000#32 : BitVec 32) = FKind.add.neutral .f32 hφ)
    (hc : S4096.ShapeCasts S4096x1) (hb : S4096x1.Broadcasts S4096x512) (p : Fin 4096) (q : Fin 512) :
    broadcastTo S4096x512 (shapeCast S4096x1 (multiReduction .add [1] S4096 src 0x00000000#32 h hφ hacc) hc) hb (ix2 p q)
      = ∑ k : Fin K, src (ix2 p k) :=
  (Cert.Lib.broadcastTo_a1_ab_apply _ hb p q).trans
    ((Cert.Lib.shapeCast_a_a1_apply _ hc p 0).trans (Cert.Lib.multiReduction_add_rows src _ h hφ hacc p))

/-- The product of the points' block with the centroids, rows against rows, into the zero accumulator, read at `(p, q)`:
    the inner product of point `p` with centroid `q`. -/
theorem inner_at (v0 : Vec Ideal S4096x64 .f32) (v1 : Vec Ideal S512x64 .f32) (p : Fin 4096) (q : Fin 512) :
    matmul (F := Ideal) dot_S4096x64_S512x64_S4096x512_1_1_0_0_n_n none (truncf .bf16 v0 bitsLt_bf16_f32)
        (truncf .bf16 v1 bitsLt_bf16_f32) (constant S4096x512 .f32 0x00000000#32) (ix2 p q)
      = ∑ d : Fin 64, v0 (ix2 p d) * v1 (ix2 q d) :=
  Cert.Lib.matmul_rows_zero_apply dot_S4096x64_S512x64_S4096x512_1_1_0_0_n_n_wf none
    (truncf .bf16 v0 bitsLt_bf16_f32) (truncf .bf16 v1 bitsLt_bf16_f32) p q

/-- The row of squared norms spread over the 4096 rows, read at `(p, q)`: entry `q` of the row. -/
theorem normRow_spread_at (v2 : Vec Ideal S1x512 .f32) (hs : S1x512.ShapeCasts S1x512)
    (hb : S1x512.Broadcasts S4096x512) (p : Fin 4096) (q : Fin 512) :
    broadcastTo S4096x512 (shapeCast S1x512 v2 hs) hb (ix2 p q) = v2 (ix2 (0 : Fin 1) q) := by
  rw [shapeCast_self]
  exact broadcastTo_1b_ab_apply v2 hb p q

variable (v0 : Vec Ideal S4096x64 .f32) (v1 : Vec Ideal S512x64 .f32) (v2 : Vec Ideal S1x512 .f32)

/-- The block's weights as an array: the body's arithmetic up to its first quotient. -/
def weights : FVec Ideal S4096x512 .f32 :=
  divf (broadcast S4096x512 (Scalar.ofBits (F := Ideal) .f32 0x3F800000#32))
    (addf (broadcast S4096x512 (Scalar.ofBits (F := Ideal) .f32 0x3F800000#32))
      (addf
        (subf
          (broadcastTo S4096x512 (shapeCast S4096x1 (multiReduction .add [1] S4096 (mulf v0 v0) 0x00000000#32
            reduces_S4096x64_S4096 (.inl rfl) rfl) shapeCasts_S4096_S4096x1) broadcasts_S4096x1_S4096x512)
          (mulf (broadcast S4096x512 (Scalar.ofBits (F := Ideal) .f32 0x40000000#32))
            (matmul dot_S4096x64_S512x64_S4096x512_1_1_0_0_n_n none (truncf .bf16 v0 bitsLt_bf16_f32)
              (truncf .bf16 v1 bitsLt_bf16_f32) (constant S4096x512 .f32 0x00000000#32))))
        (broadcastTo S4096x512 (shapeCast S1x512 v2 shapeCasts_S1x512_S1x512) broadcasts_S1x512_S4096x512)))

/-- The body's result is the weights over their row sums, the sums kept as a column and spread over the columns. -/
theorem payload_eq : k0_pay1 (F := Ideal) v0 v1 v2
    = divf (weights v0 v1 v2) (broadcastTo S4096x512 (shapeCast S4096x1 (multiReduction .add [1] S4096 (weights v0 v1 v2)
        0x00000000#32 reduces_S4096x512_S4096 (.inl rfl) rfl) shapeCasts_S4096_S4096x1) broadcasts_S4096x1_S4096x512) := rfl

/-- The block's weight at `(p, q)` is the specification's weight of centroid `q` for the block's point `p`. -/
theorem weights_at (p : Fin 4096) (q : Fin 512) :
    weights v0 v1 v2 (ix2 p q) = weight (rowOf v0 p) (rowsOf v1) (fun k => v2 (ix2 (0 : Fin 1) k)) q := by
  unfold weights weight
  simp only [divf_apply, addf_apply, subf_apply, mulf_apply, broadcast_apply]
  refine congrArg (Ideal.div _) (congrArg (_ + ·) ?_)
  refine congrArg₂ (· + ·) (congrArg₂ (· - ·) ?_ (congrArg (_ * ·) ?_)) ?_
  · exact rowSum_spread_at (mulf v0 v0) _ _ _ _ _ p q
  · exact inner_at v0 v1 p q
  · exact normRow_spread_at v2 _ _ p q

/-- THE BLOCK'S RESULT at `(p, q)` is the specification's share of centroid `q` for the block's point `p`. -/
theorem payload_at (p : Fin 4096) (q : Fin 512) :
    k0_pay1 (F := Ideal) v0 v1 v2 (ix2 p q) = share (rowOf v0 p) (rowsOf v1) (fun k => v2 (ix2 (0 : Fin 1) k)) q := by
  rw [payload_eq, divf_apply]
  unfold share
  exact congrArg₂ Ideal.div (weights_at v0 v1 v2 p q)
    ((rowSum_spread_at (weights v0 v1 v2) _ _ _ _ _ p q).trans
      (Finset.sum_congr rfl fun k _ => weights_at v0 v1 v2 p k))

end Cert.SoftAssign.Block

end
-- ==== Proof.WholeArray.lean ====
/-
  From the kernel's blocks to its whole result array.

  The grid has 64 points; point `t` reads rows `4096·t … 4096·t + 4095` of the points, all the centroids and the whole row of
  their squared norms, and writes rows `4096·t … 4096·t + 4095` of the result. The row of squared norms is computed before
  the launch: a sum over the features of the centroids' squares started from the zero word, laid as one row; read at
  `(0, q)` it is the squared norm of centroid `q`. A row of the result depends only on the same row of the points, so what
  point `t` writes back is block `t` of the specification's array, and the 64 blocks cover the array: every row `r` lies in
  block `r / 4096`.
-/
import proofs.«109983_j44873818308675_2_alg».proof.Proof.Gen.KernelIdeal.Value
import proofs.«109983_j44873818308675_2_alg».proof.Proof.BlockValue
import Idealize.ShloMosaic.Lib.StableHlo.Run
import Idealize.ShloMosaic.Lib.ValueLayout

noncomputable section

namespace Cert.SoftAssign.Tiled

open Idealize.ShloMosaic Idealize.ShloMosaic.ValueIdx Idealize.ShloMosaic.TcCoe Idealize.SL.Sem
open Cert.KernelIdeal Cert.KernelIdeal.Gen Cert.SoftAssign
open Idealize.ShloMosaic.StableHlo
open Idealize.ShloMosaic.Pipeline (Dat)
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-! ## The row of squared norms, as the region finds it -/

/-- The third operand's array at the launch: the host's row sums of the centroids' squares, laid as one row. -/
theorem normRow_eq (c : Dev nD) : (V m c main_v2 : S1x512.Idx → EReal)
    = shapeCast S1x512 (Host.reduceAdd (F := Ideal) (mulf (m ((c : Thread nD τ).loc main_arg1)) (m ((c : Thread nD τ).loc main_arg1)))
        (constant (F := Ideal) S_ .f32 0x00000000#32) reducesTo_S512x64_S512_d1 h_S_) shapeCasts_S512_S1x512 := by
  dsimp only [Gen.V, Gen.hostOps0]
  after_results
  rfl

/-- Read at `(0, q)` it is the squared norm of centroid `q`. -/
theorem normRow_at (c : Dev nD) (q : Fin 512) :
    (V m c main_v2 : S1x512.Idx → EReal) (ix2 (0 : Fin 1) q) = sqNorm (rowsOf (m ((c : Thread nD τ).loc main_arg1))) q := by
  refine (congrFun (normRow_eq m c) (ix2 (0 : Fin 1) q)).trans ?_
  refine (shapeCast_a_1a_apply _ shapeCasts_S512_S1x512 0 q).trans ?_
  refine (Cert.Lib.hostReduceAdd_rows _ _ reducesTo_S512x64_S512_d1 (by decide) h_S_ q).trans ?_
  show Ideal.ofBits .f32 0x00000000#32 + _ = _
  rw [Ideal.ofBits_zero_f32, zero_add]
  rfl

/-! ## One grid point -/

/-- The printed index maps over the 64 points: the points' and the result's blocks move with the point along the rows,
    everything else stays at block zero. -/
theorem grid_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's result on three blocks — rows `r0 … r0 + 4095` of the points `A0`, the centroids `A1` and the row of their
    squared norms — is, at `(p, q)`, the specification's entry `(r0 + p, q)`. -/
theorem block_result (x0 : Vec Ideal S4096x64 .f32) (x1 : Vec Ideal S512x64 .f32) (x2 : Vec Ideal S1x512 .f32)
    (A0 : S262144x64.Idx → EReal) (A1 : S512x64.Idx → EReal) (r0 : ℕ)
    (j : S4096x512.Idx) (i : S262144x512.Idx) (hi0 : (i 0).val = r0 + (j 0).val) (hi1 : (i 1).val = (j 1).val)
    (h0 : ∀ (p : Fin 4096) (d : Fin 64) (p' : Fin 262144), p'.val = r0 + p.val → x0 (ix2 p d) = A0 (ix2 p' d))
    (h1 : ∀ (q : Fin 512) (d : Fin 64), x1 (ix2 q d) = A1 (ix2 q d))
    (h2 : ∀ q : Fin 512, x2 (ix2 (0 : Fin 1) q) = sqNorm (rowsOf A1) q) :
    k0_pay1 (F := Ideal) x0 x1 x2 j = result A0 A1 i := by
  obtain ⟨p, q, rfl⟩ : ∃ (p : Fin 4096) (q : Fin 512), j = ix2 p q := ⟨j 0, j 1, eq_ix2 j⟩
  obtain ⟨p', q', rfl⟩ : ∃ (p' : Fin 262144) (q' : Fin 512), i = ix2 p' q' := ⟨i 0, i 1, eq_ix2 i⟩
  obtain rfl : q' = q := Fin.ext hi1
  rw [Block.payload_at]
  show share (rowOf x0 p) (rowsOf x1) (fun k => x2 (ix2 (0 : Fin 1) k)) q'
    = share (rowOf A0 p') (rowsOf A1) (sqNorm (rowsOf A1)) q'
  have e0 : rowOf x0 p = rowOf A0 p' := funext fun d => h0 p d p' hi0
  have e1 : rowsOf x1 = rowsOf A1 := funext fun q => funext fun d => h1 q d
  have e2 : (fun k => x2 (ix2 (0 : Fin 1) k)) = sqNorm (rowsOf A1) := funext h2
  rw [e0, e1, e2]

/-- WHAT POINT `t` WRITES BACK is block `t` of the specification's array of the arguments as the region finds them. -/
theorem flushed_eq (c : Dev nD) (t : Fin cfg0.N) :
    (dats m 0 c).flushed 3 t
      = ((cfg0.win 3).blk t).view.read (Elt Ideal) (result (V m c main_arg0) (V m c main_arg1)) := by
  rw [Cert.KernelIdeal.Value.flushed3]
  unfold out0_3
  rw [View.canon_unit_zero zero_offsets]
  simp only [View.ld_unit_zero (S := S4096x64) zero_offsets, View.ld_unit_zero (S := S512x64) zero_offsets,
    View.ld_unit_zero (S := S1x512) zero_offsets]
  obtain ⟨e00, e01, e10, e11, e20, e21, e30, e31⟩ := grid_facts t
  funext j
  show k0_pay1 (F := Ideal) (iblk m c 0 t) (iblk m c 1 t) (iblk m c 2 t) j
    = result (V m c main_arg0) (V m c main_arg1) (((cfg0.win 3).blk t).view.emb j)
  refine block_result (iblk m c 0 t) (iblk m c 1 t) (iblk m c 2 t) (V m c main_arg0) (V m c main_arg1) (t.val * 4096)
    j (((cfg0.win 3).blk t).view.emb j) ?_ ?_ ?_ ?_ ?_
  · show win0_3.index t (0 : Fin 2) * 4096 + 1 * (j 0).val = t.val * 4096 + (j 0).val
    omega
  · show win0_3.index t (1 : Fin 2) * 512 + 1 * (j 1).val = (j 1).val
    omega
  · intro p d p' hp
    show V m c main_arg0 (((cfg0.win 0).blk t).view.emb (ix2 p d)) = V m c main_arg0 (ix2 p' d)
    refine congrArg (V m c main_arg0) (funext fun a => Fin.ext ?_)
    match a with
    | ⟨0, _⟩ => show win0_0.index t (0 : Fin 2) * 4096 + 1 * p.val = p'.val; omega
    | ⟨1, _⟩ => show win0_0.index t (1 : Fin 2) * 64 + 1 * d.val = d.val; omega
  · intro q d
    show V m c main_arg1 (((cfg0.win 1).blk t).view.emb (ix2 q d)) = V m c main_arg1 (ix2 q d)
    refine congrArg (V m c main_arg1) (funext fun a => Fin.ext ?_)
    match a with
    | ⟨0, _⟩ => show win0_1.index t (0 : Fin 2) * 512 + 1 * q.val = q.val; omega
    | ⟨1, _⟩ => show win0_1.index t (1 : Fin 2) * 64 + 1 * d.val = d.val; omega
  · intro q
    show (V m c main_v2 : S1x512.Idx → EReal) (((cfg0.win 2).blk t).view.emb (ix2 (0 : Fin 1) q)) = _
    have e : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 512 + 1 * q.val = q.val; omega)
    rw [e, normRow_at, V_main_arg1]

/-! ## The blocks cover the array -/

/-- An index of the result array is in point `t`'s block iff each coordinate is in the block's range on its axis. -/
theorem mem_blk (t : Fin cfg0.N) (i : S262144x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v3).slice (win0_3.rect t)).set ↔ _
  rw [View.set_slice_whole, Rect.mem_set_unit]
  exact Iff.rfl

/-- Row `r` of the result lies in the block of point `r / 4096`. -/
theorem cover (i : S262144x512.Idx) :
    ∃ t : Fin cfg0.N, (cfg0.win 3).flush t = true ∧ i ∈ ((cfg0.win 3).blk t).view.set := by
  have hN : cfg0.N = 64 := N_0
  have hi0 : (i 0).val < 262144 := (i 0).isLt
  have hi1 : (i 1).val < 512 := (i 1).isLt
  have ht : (i 0).val / 4096 < cfg0.N := by rw [hN]; omega
  obtain ⟨-, -, -, -, -, -, e30, e31⟩ := grid_facts ⟨(i 0).val / 4096, ht⟩
  refine ⟨⟨(i 0).val / 4096, ht⟩, flush0_3 _, ?_⟩
  rw [mem_blk]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    rw [e30]; show (i 0).val / 4096 * 4096 ≤ (i 0).val ∧ (i 0).val < (i 0).val / 4096 * 4096 + 4096; omega
  | ⟨1, _⟩ =>
    show win0_3.index ⟨(i 0).val / 4096, ht⟩ (1 : Fin 2) * 512 ≤ (i 1).val
      ∧ (i 1).val < win0_3.index ⟨(i 0).val / 4096, ht⟩ (1 : Fin 2) * 512 + 512
    rw [e31]; omega

/-! ## The array after the run, and the run -/

/-- THE RESULT ARRAY after the run is the specification's array of the two arguments. -/
theorem final (c : Dev nD) : (dats m 0 c).arrAt 3 cfg0.N
    = result (m ((c : Thread nD τ).loc main_arg0)) (m ((c : Thread nD τ).loc main_arg1)) := by
  have h := (dats m 0 c).arrAt_eq_of_cover 3 (result (V m c main_arg0) (V m c main_arg1))
    (fun t _ => flushed_eq m c t) cover
  rw [V_main_arg0, V_main_arg1] at h
  exact h

/-- The kernel's run, read: the result array at the specification's array, the arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.SoftAssign.Tiled

end
-- ==== Proof.PlainValue.lean ====
/-
  The plain-array program computes the specification.

  Its stages are read one at a time at explicit coordinates: the squared norm of point `p` and of centroid `q` (each a sum
  started from the zero word, which adds nothing), their inner product (a matrix product against the transposed centroids,
  so entry `(p, q)` contracts row `p` of the points with row `q` of the centroids), and the weight. This program divides the
  squared distance by one and raises the weight to the power one; both steps give their argument back on the extended
  reals, so the weight is the specification's, and so are the sum of a point's weights and the final quotient.
-/
import proofs.«109983_j44873818308675_2_alg».proof.Proof.Gen.ReferenceIdeal.Read
import proofs.«109983_j44873818308675_2_alg».proof.Proof.Spec

noncomputable section

namespace Cert.SoftAssign.Plain

open Idealize.ShloMosaic Idealize.ShloMosaic.ValueIdx Cert.ReferenceIdeal Cert.ReferenceIdeal.Read Cert.SoftAssign
open scoped BigOperators

variable (x : (⟨S262144x64, .f32⟩ : BufTy).Contents (Elt Ideal)) (c : (⟨S512x64, .f32⟩ : BufTy).Contents (Elt Ideal))

/-- The squared norm of point `p`. -/
theorem pointSq_at (p : Fin 262144) :
    val_main_v1 (F := Ideal) x (ix1 p) = ∑ d : Fin 64, x (ix2 p d) * x (ix2 p d) := by
  rw [val_main_v1_apply, val_main_cst_apply]
  show Ideal.ofBits .f32 0x00000000#32 + _ = _
  rw [Ideal.ofBits_zero_f32, zero_add]
  refine Finset.sum_congr rfl fun d _ => ?_
  have e : idx_main_v1 (ix1 p) d = ix2 p d :=
    funext fun a => Fin.ext (by match a with | ⟨0, _⟩ => rfl | ⟨1, _⟩ => rfl)
  rw [val_main_v0_apply, e]; rfl

/-- The squared norm of centroid `q`. -/
theorem centroidSq_at (q : Fin 512) : val_main_v4 (F := Ideal) c (ix1 q) = sqNorm (rowsOf c) q := by
  rw [val_main_v4_apply, val_main_cst_0_apply]
  show Ideal.ofBits .f32 0x00000000#32 + _ = _
  rw [Ideal.ofBits_zero_f32, zero_add]
  refine Finset.sum_congr rfl fun d _ => ?_
  have e : idx_main_v4 (ix1 q) d = ix2 q d :=
    funext fun a => Fin.ext (by match a with | ⟨0, _⟩ => rfl | ⟨1, _⟩ => rfl)
  rw [val_main_v3_apply, e]; rfl

/-- The inner product of point `p` with centroid `q`: the product with the transposed centroids at `(p, q)`. -/
theorem inner_at (p : Fin 262144) (q : Fin 512) :
    val_main_v6 (F := Ideal) x c (ix2 p q) = ∑ d : Fin 64, x (ix2 p d) * c (ix2 q d) := by
  rw [val_main_v6_apply]
  refine Finset.sum_congr rfl fun d _ => ?_
  have el : lidx_main_v6 (ix2 p q) d = ix2 p d :=
    funext fun a => Fin.ext (by match a with | ⟨0, _⟩ => rfl | ⟨1, _⟩ => rfl)
  have er : idx_main_v5 (ridx_main_v6 (ix2 p q) d) = ix2 q d :=
    funext fun a => Fin.ext (by match a with | ⟨0, _⟩ => rfl | ⟨1, _⟩ => rfl)
  rw [val_main_v5_apply, el, er]

/-- The weight of centroid `q` for point `p`: the quotient by one and the power one drop out. -/
theorem weight_at (p : Fin 262144) (q : Fin 512) :
    val_main_v21 (F := Ideal) x c (ix2 p q) = weight (rowOf x p) (rowsOf c) (sqNorm (rowsOf c)) q := by
  have e1 : idx_main_v2 (idx_main_v9 (ix2 p q)) = ix1 p :=
    funext fun a => Fin.ext (by match a with | ⟨0, _⟩ => rfl)
  have e2 : idx_main_v11 (idx_main_v12 (ix2 p q)) = ix1 q :=
    funext fun a => Fin.ext (by match a with | ⟨0, _⟩ => rfl)
  rw [val_main_v21_apply, val_main_v19_apply, val_main_v20_apply, val_main_cst_5_apply, val_main_v18_apply,
    val_main_cst_4_apply, val_main_v17_apply, val_main_v16_apply, val_main_cst_3_apply, val_main_v15_apply,
    val_main_v14_apply, val_main_cst_2_apply, val_main_v13_apply, val_main_v12_apply, val_main_v11_apply,
    val_main_v10_apply, val_main_v9_apply, val_main_v2_apply, val_main_v8_apply, val_main_v7_apply,
    val_main_cst_1_apply, e1, e2, pointSq_at, centroidSq_at, inner_at]
  show Ideal.pow (Ideal.div oneW (oneW + Ideal.div
    (((∑ d : Fin 64, x (ix2 p d) * x (ix2 p d)) - twoW * ∑ d : Fin 64, x (ix2 p d) * c (ix2 q d)) + sqNorm (rowsOf c) q) oneW)) oneW = _
  rw [pow_oneW, div_oneW]; rfl

/-- The sum of point `p`'s weights. -/
theorem total_at (p : Fin 262144) :
    val_main_v22 (F := Ideal) x c (ix1 p) = ∑ k : Fin 512, weight (rowOf x p) (rowsOf c) (sqNorm (rowsOf c)) k := by
  rw [val_main_v22_apply, val_main_cst_6_apply]
  show Ideal.ofBits .f32 0x00000000#32 + _ = _
  rw [Ideal.ofBits_zero_f32, zero_add]
  refine Finset.sum_congr rfl fun k _ => ?_
  have e : idx_main_v22 (ix1 p) k = ix2 p k :=
    funext fun a => Fin.ext (by match a with | ⟨0, _⟩ => rfl | ⟨1, _⟩ => rfl)
  rw [e, weight_at]

/-- THE PLAIN-ARRAY PROGRAM'S RESULT is the specification's, as whole arrays. -/
theorem value_eq : val_main_v25 (F := Ideal) x c = result x c := by
  funext i
  obtain ⟨p, q, rfl⟩ : ∃ (p : Fin 262144) (q : Fin 512), i = ix2 p q := ⟨i 0, i 1, eq_ix2 i⟩
  have e : idx_main_v23 (idx_main_v24 (ix2 p q)) = ix1 p :=
    funext fun a => Fin.ext (by match a with | ⟨0, _⟩ => rfl)
  rw [val_main_v25_apply, val_main_v24_apply, val_main_v23_apply, e, total_at, weight_at]
  rfl

end Cert.SoftAssign.Plain

end
-- ==== Proof.lean ====
/-
  The kernel and the plain-array program compute one array.

  Both assign each of 262144 points (64 features) a share of each of 512 centroids: the squared distance expanded as
  `‖x‖² − 2·⟨x, c⟩ + ‖c‖²`, the Student-t weight `1 / (1 + distance²)`, and the weight over the sum of the point's 512
  weights. The kernel works on 64 blocks of 4096 points, takes the centroids' squared norms as a precomputed row and forms
  the inner products by a matrix product of rows against rows; the plain-array program transposes the centroids, divides
  the squared distance by one and raises the weight to the power one. On the extended reals a quotient by one and a power
  one give their argument back, a change of float format is the identity, and a sum started from the zero word is the
  sum: so both arrays are the specification's (`Cert.SoftAssign.result`), entry by entry, with no finiteness needed of
  the inputs.

  The frames of the two kernel programs are the generated ones; the plain-array program's frame is its generated run with
  the result dropped; no operation was rewritten by the idealization, so nothing is owed for it.
-/
import proofs.«109983_j44873818308675_2_alg».proof.Defs
import proofs.«109983_j44873818308675_2_alg».proof.Proof.Gen.Kernel
import proofs.«109983_j44873818308675_2_alg».proof.Proof.Gen.Kernel.Skeleton
import proofs.«109983_j44873818308675_2_alg».proof.Proof.Gen.Kernel.Launch
import proofs.«109983_j44873818308675_2_alg».proof.Proof.Gen.Kernel.Points
import proofs.«109983_j44873818308675_2_alg».proof.Proof.Gen.Kernel.Frame
import proofs.«109983_j44873818308675_2_alg».proof.Proof.Gen.KernelIdeal
import proofs.«109983_j44873818308675_2_alg».proof.Proof.Gen.KernelIdeal.Skeleton
import proofs.«109983_j44873818308675_2_alg».proof.Proof.Gen.KernelIdeal.Launch
import proofs.«109983_j44873818308675_2_alg».proof.Proof.Gen.KernelIdeal.Points
import proofs.«109983_j44873818308675_2_alg».proof.Proof.Gen.KernelIdeal.Frame
import proofs.«109983_j44873818308675_2_alg».proof.Proof.Gen.ReferenceIdeal
import proofs.«109983_j44873818308675_2_alg».proof.Proof.Gen.KernelIdeal.Value
import proofs.«109983_j44873818308675_2_alg».proof.Proof.Gen.ReferenceIdeal.Run
import proofs.«109983_j44873818308675_2_alg».proof.Proof.Gen.ReferenceIdeal.Read
import proofs.«109983_j44873818308675_2_alg».proof.Proof.Gen.Pre_finite_inputs
import proofs.«109983_j44873818308675_2_alg».proof.Proof.WholeArray
import proofs.«109983_j44873818308675_2_alg».proof.Proof.PlainValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The plain-array program runs and leaves its arguments as they were: its run, the result dropped. -/
theorem frame_plain : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories agreeing on the points and the centroids, both programs end with the specification's array. -/
theorem algebraic : Cert.algebraic_KernelIdeal_ReferenceIdeal := by
  intro m ρ m' ρ' _ hagree
  refine ⟨fun c => Cert.SoftAssign.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SoftAssign.Tiled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.SoftAssign.Plain.value_eq, (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_plain, preserves, algebraic⟩

end Cert.Proof

end
